-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S128x256 : Shape := ⟨2, ![128, 256]⟩
abbrev S_ : Shape := ⟨0, ![]⟩
abbrev S256x128 : Shape := ⟨2, ![256, 128]⟩
abbrev S128x128 : Shape := ⟨2, ![128, 128]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  reducesTo_S_S_d : S_.ReducesTo [] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S256x128 .f32) (main_arg5 : FVec F S128x128 .f32) (main_v12 : IVec S_ 1) (main_v15 : IVec S_ 1) : IVec S_ 1 :=
  let main_v16 : IVec S_ 1 := andi main_v12 main_v15
  let main_v17 : FVec F S256x128 .f32 := Host.absf main_arg4
  let main_cst_6 : FVec F S_ .f32 := constant S_ .f32 0x7F800000#32
  let main_v18 : FVec F S256x128 .f32 := broadcastInDim S256x128 ![] bcast_S_S256x128 main_cst_6
  let main_v19 : IVec S256x128 1 := cmpf .olt main_v17 main_v18
  let main_c_7 : IVec S_ 1 := constantI S_ 1 1#1
  let main_v20 : IVec S_ 1 := (fun x v => Host.reduce IntOp.andi x v reducesTo_S256x128_S_d0_1 h_S_) main_v19 main_c_7
  let main_v21 : IVec S_ 1 := andi main_v16 main_v20
  let main_v22 : FVec F S128x128 .f32 := Host.absf main_arg5
  let main_cst_8 : FVec F S_ .f32 := constant S_ .f32 0x7F800000#32
  let main_v23 : FVec F S128x128 .f32 := broadcastInDim S128x128 ![] bcast_S_S128x128 main_cst_8
  let main_v24 : IVec S128x128 1 := cmpf .olt main_v22 main_v23
  let main_c_9 : IVec S_ 1 := constantI S_ 1 1#1
  let main_v25 : IVec S_ 1 := (fun x v => Host.reduce IntOp.andi x v reducesTo_S128x128_S_d0_1 h_S_) main_v24 main_c_9
  let main_v26 : IVec S_ 1 := andi main_v21 main_v25
  main_v26

def fn {F : FTy → Type} [FloatOps F] (main_arg0 : FVec F S16x256x128x128 .f32) (main_arg1 : FVec F S128x256 .f32) (main_arg2 : FVec F S_ .f32) (main_arg3 : FVec F S_ .f32) (main_arg4 : FVec F S256x128 .f32) (main_arg5 : FVec F S128x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_arg5 main_v12 main_v15
-- ==== Kernel.lean ====
abbrev S16x256x128x128 : Shape := ⟨4, ![16, 256, 128, 128]⟩
abbrev S128x256 : Shape := ⟨2, ![128, 256]⟩
abbrev S_ : Shape := ⟨0, ![]⟩
abbrev S256x128 : Shape := ⟨2, ![256, 128]⟩
abbrev S128x128 : Shape := ⟨2, ![128, 128]⟩
abbrev S4096x128x128 : Shape := ⟨3, ![4096, 128, 128]⟩
abbrev S4096 : Shape := ⟨1, ![4096]⟩
abbrev S256x128x128 : Shape := ⟨3, ![256, 128, 128]⟩
abbrev S256 : Shape := ⟨1, ![256]⟩
abbrev S16x256 : Shape := ⟨2, ![16, 256]⟩
abbrev S16x128 : Shape := ⟨2, ![16, 128]⟩
abbrev S16 : Shape := ⟨1, ![16]⟩
abbrev S16x1 : Shape := ⟨2, ![16, 1]⟩
abbrev S128x128x128 : Shape := ⟨3, ![128, 128, 128]⟩
abbrev S128 : Shape := ⟨1, ![128]⟩
abbrev S128x1x1 : Shape := ⟨3, ![128, 1, 1]⟩

abbrev nBuf : Space → Nat
  | .hbm => 48
  | .vmem => 10
  | .smem => 0
  | _ => 0

abbrev bufTy : (tb : Table) → Fin (tcTables nBuf tb) → BufTy
  | .hbm, ⟨0, _⟩ => ⟨S16x256x128x128, .f32⟩
  | .hbm, ⟨1, _⟩ => ⟨S128x256, .f32⟩
  | .hbm, ⟨2, _⟩ => ⟨S_, .f32⟩
  | .hbm, ⟨3, _⟩ => ⟨S_, .f32⟩
  | .hbm, ⟨4, _⟩ => ⟨S256x128, .f32⟩
  | .hbm, ⟨5, _⟩ => ⟨S128x128, .f32⟩
  | .hbm, ⟨6, _⟩ => ⟨S4096x128x128, .f32⟩
  | .hbm, ⟨7, _⟩ => ⟨S4096, .f32⟩
  | .hbm, ⟨8, _⟩ => ⟨S16x256, .f32⟩
  | .hbm, ⟨9, _⟩ => ⟨S256x128, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16x1, .f32⟩
  | .hbm, ⟨19, _⟩ => ⟨S16x128, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16, .f32⟩
  | .hbm, ⟨24, _⟩ => ⟨S16x1, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S128x256, .f32⟩
  | .hbm, ⟨36, _⟩ => ⟨S16x256, .f32⟩
  | .hbm, ⟨37, _⟩ => ⟨S16x256, .f32⟩
  | .hbm, ⟨38, _⟩ => ⟨S16x256, .f32⟩
  | .hbm, ⟨39, _⟩ => ⟨S_, .f32⟩
  | .hbm, ⟨40, _⟩ => ⟨S16x256, .f32⟩
  | .hbm, ⟨41, _⟩ => ⟨S16x256, .f32⟩
  | .hbm, ⟨42, _⟩ => ⟨S_, .f32⟩
  | .hbm, ⟨43, _⟩ => ⟨S16x256, .f32⟩
  | .hbm, ⟨44, _⟩ => ⟨S16x256, .f32⟩
  | .hbm, ⟨45, _⟩ => ⟨S4096, .f32⟩
  | .hbm, ⟨46, _⟩ => ⟨S4096x128x128, .f32⟩
  | .hbm, ⟨47, _⟩ => ⟨S16x256x128x128, .f32⟩
  | .local _ .vmem, ⟨0, _⟩ => ⟨S256x128x128, .f32⟩
  | .local _ .vmem, ⟨1, _⟩ => ⟨S256x128x128, .f32⟩
  | .local _ .vmem, ⟨2, _⟩ => ⟨S256, .f32⟩
  | .local _ .vmem, ⟨3, _⟩ => ⟨S256, .f32⟩
  | .local _ .vmem, ⟨4, _⟩ => ⟨S128x128x128, .f32⟩
  | .local _ .vmem, ⟨5, _⟩ => ⟨S128x128x128, .f32⟩
  | .local _ .vmem, ⟨6, _⟩ => ⟨S128, .f32⟩
  | .local _ .vmem, ⟨7, _⟩ => ⟨S128, .f32⟩
  | .local _ .vmem, ⟨8, _⟩ => ⟨S128x128x128, .f32⟩
  | .local _ .vmem, ⟨9, _⟩ => ⟨S128x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S16x256x128x128_S4096x128x128 : S16x256x128x128.ShapeCasts S4096x128x128
  inb_S256x128x128_S256x128x128_0_0_0 : ∀ a, (![0, 0, 0] : Fin 3 → Nat) a + S256x128x128.size a ≤ S256x128x128.size a
  h_S256x128x128 : 0 < S256x128x128.numel
  shapeCasts_S256x128x128_S256x128x128 : S256x128x128.ShapeCasts S256x128x128
  reduces_S256x128x128_S256x128 : S256x128x128.Reduces [2] S256x128
  reduces_S256x128_S256 : S256x128.Reduces [1] S256
  inb_S256_S256_0 : ∀ a, (![0] : Fin 1 → Nat) a + S256.size a ≤ S256.size a
  h_S256 : 0 < S256.numel
  shapeCasts_S4096_S16x256 : S4096.ShapeCasts S16x256
  transposes_S128x256_S256x128_1_0 : S128x256.Transposes [1, 0] S256x128
  bcast_S_S16x128 : S_.BroadcastsInDim S16x128 (![] : Fin 0 → Fin S16x128.rank)
  reducesTo_S16x128_S16_d1 : S16x128.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  transposes_S256x128_S128x256_1_0 : S256x128.Transposes [1, 0] S128x256
  bcast_S_S16x256 : S_.BroadcastsInDim S16x256 (![] : Fin 0 → Fin S16x256.rank)
  shapeCasts_S16x256_S4096 : S16x256.ShapeCasts S4096
  inb_S128_S128_0 : ∀ a, (![0] : Fin 1 → Nat) a + S128.size a ≤ S128.size a
  h_S128 : 0 < S128.numel
  shapeCasts_S128_S128 : S128.ShapeCasts S128
  shapeCasts_S128_S128x1x1 : S128.ShapeCasts S128x1x1
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  shapeCasts_S128x1x1_S128x1x1 : S128x1x1.ShapeCasts S128x1x1
  broadcasts_S128x1x1_S128x128x128 : S128x1x1.Broadcasts S128x128x128
  shapeCasts_S4096x128x128_S16x256x128x128 : S4096x128x128.ShapeCasts S16x256x128x128
  dot_S16x256_S256x128_S16x128_1_0_0_1_n_n_wf : DotDims.WF S16x256 S256x128 S16x128 [1] [0] [0] [1] [] []
  dot_S16x128_S128x128_S16x128_1_0_0_1_n_n_wf : DotDims.WF S16x128 S128x128 S16x128 [1] [0] [0] [1] [] []
  dot_S16x128_S128x256_S16x256_1_0_0_1_n_n_wf : DotDims.WF S16x128 S128x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128x128.size a ≤ S4096x128x128.size a
  hwx0_0 : ∀ i : grid0.Coords, EltTy.bits .f32 = 32 ∨ (Rect.block (s := S4096x128x128) S256x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S4096.size a
  hwx0_1 : ∀ i : grid0.Coords, EltTy.bits .f32 = 32 ∨ (Rect.block (s := S4096) S256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128x128.size a ≤ S4096x128x128.size a
  hwx1_0 : ∀ i : grid1.Coords, EltTy.bits .f32 = 32 ∨ (Rect.block (s := S4096x128x128) S128x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S4096.size a
  hwx1_1 : ∀ i : grid1.Coords, EltTy.bits .f32 = 32 ∨ (Rect.block (s := S4096) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128x128.size a ≤ S4096x128x128.size a
  hwx1_2 : ∀ i : grid1.Coords, EltTy.bits .f32 = 32 ∨ (Rect.block (s := S4096x128x128) S128x128x128.size (cc1_transform_2 i) (hinb1_2 i)).WholeWords (EltTy.packing .f32)

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x256_S16x256_1_0_0_1_n_n : DotDims S16x128 S128x256 S16x256 where
  lhsContracting := [1]
  rhsContracting := [0]
  lhsNonContracting := [0]
  rhsNonContracting := [1]
  lhsBatch := []
  rhsBatch := []
  wf := dot_S16x128_S128x256_S16x256_1_0_0_1_n_n_wf

abbrev win0_0 : Pipeline.Window sig grid0 :=
  Pipeline.Window.ofSpec (Memref.whole main_v0) S256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S128x256 : Shape := ⟨2, ![128, 256]⟩
abbrev S_ : Shape := ⟨0, ![]⟩
abbrev S256x128 : Shape := ⟨2, ![256, 128]⟩
abbrev S128x128 : Shape := ⟨2, ![128, 128]⟩
abbrev S16x256 : Shape := ⟨2, ![16, 256]⟩
abbrev S16x128 : Shape := ⟨2, ![16, 128]⟩
abbrev S16 : Shape := ⟨1, ![16]⟩
abbrev S16x1 : Shape := ⟨2, ![16, 1]⟩
abbrev S16x256x1x1 : Shape := ⟨4, ![16, 256, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S128x256, .f32⟩
  | .hbm, ⟨2, _⟩ => ⟨S_, .f32⟩
  | .hbm, ⟨3, _⟩ => ⟨S_, .f32⟩
  | .hbm, ⟨4, _⟩ => ⟨S256x128, .f32⟩
  | .hbm, ⟨5, _⟩ => ⟨S128x128, .f32⟩
  | .hbm, ⟨6, _⟩ => ⟨S_, .f32⟩
  | .hbm, ⟨7, _⟩ => ⟨S16x256, .f32⟩
  | .hbm, ⟨8, _⟩ => ⟨S_, .f32⟩
  | .hbm, ⟨9, _⟩ => ⟨S16x256, .f32⟩
  | .hbm, ⟨10, _⟩ => ⟨S16x256, .f32⟩
  | .hbm, ⟨11, _⟩ => ⟨S256x128, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16x1, .f32⟩
  | .hbm, ⟨21, _⟩ => ⟨S16x128, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16, .f32⟩
  | .hbm, ⟨26, _⟩ => ⟨S16x1, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | .hbm, ⟨37, _⟩ => ⟨S128x256, .f32⟩
  | .hbm, ⟨38, _⟩ => ⟨S16x256, .f32⟩
  | .hbm, ⟨39, _⟩ => ⟨S16x256, .f32⟩
  | .hbm, ⟨40, _⟩ => ⟨S16x256, .f32⟩
  | .hbm, ⟨41, _⟩ => ⟨S_, .f32⟩
  | .hbm, ⟨42, _⟩ => ⟨S16x256, .f32⟩
  | .hbm, ⟨43, _⟩ => ⟨S16x256, .f32⟩
  | .hbm, ⟨44, _⟩ => ⟨S_, .f32⟩
  | .hbm, ⟨45, _⟩ => ⟨S16x256, .f32⟩
  | .hbm, ⟨46, _⟩ => ⟨S16x256, .f32⟩
  | .hbm, ⟨47, _⟩ => ⟨S16x256x1x1, .f32⟩
  | .hbm, ⟨48, _⟩ => ⟨S16x256x128x128, .f32⟩
  | .hbm, ⟨49, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  transposes_S128x256_S256x128_1_0 : S128x256.Transposes [1, 0] S256x128
  bcast_S_S16x128 : S_.BroadcastsInDim S16x128 (![] : Fin 0 → Fin S16x128.rank)
  reducesTo_S16x128_S16_d1 : S16x128.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  transposes_S256x128_S128x256_1_0 : S256x128.Transposes [1, 0] S128x256
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S256x128_S16x128_1_0_0_1_n_n_wf : DotDims.WF S16x256 S256x128 S16x128 [1] [0] [0] [1] [] []
  dot_S16x128_S128x128_S16x128_1_0_0_1_n_n_wf : DotDims.WF S16x128 S128x128 S16x128 [1] [0] [0] [1] [] []
  dot_S16x128_S128x256_S16x256_1_0_0_1_n_n_wf : DotDims.WF S16x128 S128x256 S16x256 [1] [0] [0] [1] [] []

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x256_S16x256_1_0_0_1_n_n : DotDims S16x128 S128x256 S16x256 where
  lhsContracting := [1]
  rhsContracting := [0]
  lhsNonContracting := [0]
  rhsNonContracting := [1]
  lhsBatch := []
  rhsBatch := []
  wf := dot_S16x128_S128x256_S16x256_1_0_0_1_n_n_wf

class Facts : Prop extends Facts₀ where

variable [Facts]
-- ==== Proof.KRun.lean ====
/-
  The idealized kernel's run with its result NAMED. The program is two pipelined regions among stretches of host
  operations; its buffer contents at each boundary are a fold from the launch memory (the generated frame's
  `Gen.W0 … Gen.W7`). Every weakly fair execution terminates with every unscoped buffer at the last fold `Gen.W7`;
  the generated frame keeps of that only the arguments, and here the result buffer is kept too: after the run
  `main_v34` holds `Gen.W7 … main_v34`, the arguments what they held at launch.
-/
import proofs.«141233_j51135880626495_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run_named : θ_run defs (onTc (τ := τ) (main (F := F))) ⟨m, fun _ => 0, ρ⟩ (fun r => ∀ c : Dev nD,
      r.2.mem ((c.tc : Thread nD τ).loc main_v34) = W7 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v34 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.Chain.lean ====
/-
  The channel gate as ONE function of the pooled means and the five parameter arrays: the host operations both
  programs apply between the pooling and the final product (the 1×1 convolution, a softmax over the hidden channels,
  the adjacency product, the scalar scale and relu, the second 1×1 convolution and the sigmoid). Both programs apply
  exactly these operations, so the certificate never opens them: it shows the two programs feed them the same pooled
  means, and carries the chain as this one function.
-/
import proofs.«141233_j51135880626495_1_alg».proof.KernelIdeal

noncomputable section

namespace Cert.KernelIdeal.Chain

open Cert.KernelIdeal Idealize.ShloMosaic Idealize.ShloMosaic.TcCoe Idealize.SL.Sem
open Cert.KernelIdeal.Facts₀ Cert.KernelIdeal.Facts

variable {F : FTy → Type} [FloatOps F] [Cert.KernelIdeal.Facts]

/-- The gate (batch × channel) from the pooled means `y` (batch × channel) and the parameters. -/
def gate (y : (⟨S16x256, .f32⟩ : BufTy).Contents (Elt F)) (x1 : (⟨S128x256, .f32⟩ : BufTy).Contents (Elt F))
    (x2 x3 : (⟨S_, .f32⟩ : BufTy).Contents (Elt F)) (x4 : (⟨S256x128, .f32⟩ : BufTy).Contents (Elt F))
    (x5 : (⟨S128x128, .f32⟩ : BufTy).Contents (Elt F)) : (⟨S16x256, .f32⟩ : BufTy).Contents (Elt F) :=
  -- the first 1×1 convolution: y · w1ᵀ
  let v4 : (⟨S16x128, .f32⟩ : BufTy).Contents (Elt F) :=
    Host.dotGeneral dot_S16x256_S256x128_S16x128_1_0_0_1_n_n none y (transpose S256x128 [1, 0] x1 transposes_S128x256_S256x128_1_0)
  -- the softmax of w2 · v4 over the hidden channels
  let v6 : (⟨S16x128, .f32⟩ : BufTy).Contents (Elt F) := mulf (broadcastInDim S16x128 ![] bcast_S_S16x128 x2) v4
  let v7 : (⟨S16, .f32⟩ : BufTy).Contents (Elt F) :=
    Host.reduce FloatOps.maximumf v6 (constant S_ .f32 0xFF800000#32) reducesTo_S16x128_S16_d1 h_S_
  let v9 : (⟨S16, .f32⟩ : BufTy).Contents (Elt F) := maximumf (broadcastInDim S16 ![] bcast_S_S16 (constant S_ .f32 0xFF800000#32)) v7
  let v11 : (⟨S16x128, .f32⟩ : BufTy).Contents (Elt F) :=
    broadcastInDim S16x128 ![0, 1] bcast_S16x1_S16x128_0_1 (broadcastInDim S16x1 ![0] bcast_S16_S16x1_0 v9)
  let v13 : (⟨S16x128, .f32⟩ : BufTy).Contents (Elt F) := Host.exp (subf v6 v11)
  let v14 : (⟨S16, .f32⟩ : BufTy).Contents (Elt F) :=
    Host.reduceAdd v13 (constant S_ .f32 0x00000000#32) reducesTo_S16x128_S16_d1 h_S_
  let v16 : (⟨S16x128, .f32⟩ : BufTy).Contents (Elt F) :=
    broadcastInDim S16x128 ![0, 1] bcast_S16x1_S16x128_0_1 (broadcastInDim S16x1 ![0] bcast_S16_S16x1_0 v14)
  let v17 : (⟨S16x128, .f32⟩ : BufTy).Contents (Elt F) := Host.divf v13 v16
  -- v4 ⊙ softmax + v4 · A2, scaled by w3, through relu
  let v20 : (⟨S16x128, .f32⟩ : BufTy).Contents (Elt F) :=
    addf (mulf v4 v17) (Host.dotGeneral dot_S16x128_S128x128_S16x128_1_0_0_1_n_n none v4 x5)
  let v22 : (⟨S16x128, .f32⟩ : BufTy).Contents (Elt F) := mulf (broadcastInDim S16x128 ![] bcast_S_S16x128 x3) v20
  let v23 : (⟨S16x128, .f32⟩ : BufTy).Contents (Elt F) :=
    maximumf v22 (broadcastInDim S16x128 ![] bcast_S_S16x128 (constant S_ .f32 0x00000000#32))
  -- the second 1×1 convolution and the sigmoid 1 / (1 + exp (−·))
  let v25 : (⟨S16x256, .f32⟩ : BufTy).Contents (Elt F) :=
    Host.dotGeneral dot_S16x128_S128x256_S16x256_1_0_0_1_n_n none v23 (transpose S128x256 [1, 0] x4 transposes_S256x128_S128x256_1_0)
  let v29 : (⟨S16x256, .f32⟩ : BufTy).Contents (Elt F) :=
    addf (broadcastInDim S16x256 ![] bcast_S_S16x256 (constant S_ .f32 0x3F800000#32)) (Host.exp (Host.negf v25))
  Host.divf (broadcastInDim S16x256 ![] bcast_S_S16x256 (constant S_ .f32 0x3F800000#32)) v29

end Cert.KernelIdeal.Chain

end
-- ==== Proof.KVals.lean ====
/-
  The buffer contents at the boundaries of the idealized kernel's run, read as values.
  The program: reshape x to (4096, 128, 128); region 0 (pooling) writes the 4096 means; the host chain turns
  them, reshaped to (16, 256), into the gate, reshaped back to 4096 entries; region 1 (the product) writes the
  (4096, 128, 128) result; a last reshape gives it its four axes. Here each host stretch is read: what region 0
  and region 1 find in their input arrays, and the result buffer as the reshape of region 1's output array.
-/
import proofs.«141233_j51135880626495_1_alg».proof.Proof.Gen.KernelIdeal.Frame
import proofs.«141233_j51135880626495_1_alg».proof.Proof.Chain
import Idealize.ShloMosaic.Lib.StableHlo.Run
import Idealize.ShloMosaic.Lib.Pipeline.Value

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable {F : FTy → Type} [FloatOps F]
variable (m : (ℓ : Loc nD τ sig) → Buf (Elt F) ℓ) (ρ : Dev nD → PrngReg)

/-- Region 0 finds in its input array the argument x, reshaped to (4096, 128, 128). -/
theorem entry0_x (c : Dev nD) :
    V1 m ρ c main_v0 = shapeCast S4096x128x128 (m ((c.tc : Thread nD τ).loc main_arg0)) Gen.shapeCasts_S16x256x128x128_S4096x128x128 := by
  show StableHlo.after hostOps0 (W0 m ρ c) (Proc.devRef .tc main_v0) = _
  after_results
  rfl

/-- Region 0 never writes back through its input window. -/
theorem noflush0_0 : ∀ t : Fin cfg0.N, (cfg0.win 0).flush t = false :=
  (by decide +kernel : ∀ t : Fin grid0.N, win0_0.flush t = false)

/-- So the input array leaves region 0 as it entered. -/
theorem exit0_x (c : Dev nD) : W2 m ρ c (Proc.devRef .tc main_v0) = V1 m ρ c main_v0 := by
  refine (W2_arr m ρ c 0).trans ?_
  funext i
  refine ((dat0 (V1 m ρ) c).arrAt_apply_of_forall_not_mem 0 cfg0.N i fun t _ hf => ?_).trans ?_
  · rw [noflush0_0 t] at hf; exact absurd hf (by decide)
  · rw [A_eq0]

/-- The pooled means leave region 0 in `main_v1`. -/
theorem exit0_pool (c : Dev nD) : W2 m ρ c (Proc.devRef .tc main_v1) = (dat0 (V1 m ρ) c).arrAt 1 cfg0.N :=
  W2_arr m ρ c 1

/-- Region 0 and the reshape before it leave the five parameter arrays as launched. -/
theorem exit0_arg1 (c : Dev nD) : W2 m ρ c (Proc.devRef .tc main_arg1) = m ((c.tc : Thread nD τ).loc main_arg1) := by
  refine (W2_of_ne m ρ c main_arg1 (by decide)).trans ?_
  show StableHlo.after hostOps0 (W0 m ρ c) (Proc.devRef .tc main_arg1) = _
  after_results
theorem exit0_arg2 (c : Dev nD) : W2 m ρ c (Proc.devRef .tc main_arg2) = m ((c.tc : Thread nD τ).loc main_arg2) := by
  refine (W2_of_ne m ρ c main_arg2 (by decide)).trans ?_
  show StableHlo.after hostOps0 (W0 m ρ c) (Proc.devRef .tc main_arg2) = _
  after_results
theorem exit0_arg3 (c : Dev nD) : W2 m ρ c (Proc.devRef .tc main_arg3) = m ((c.tc : Thread nD τ).loc main_arg3) := by
  refine (W2_of_ne m ρ c main_arg3 (by decide)).trans ?_
  show StableHlo.after hostOps0 (W0 m ρ c) (Proc.devRef .tc main_arg3) = _
  after_results
theorem exit0_arg4 (c : Dev nD) : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  after_results
theorem exit0_arg5 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results

/-- Region 1 finds the reshaped x in its first input array, -/
theorem entry1_x (c : Dev nD) : V5 m ρ c main_v0 = V1 m ρ c main_v0 := by
  show StableHlo.after hostOps1_2 (W4 m ρ c) (Proc.devRef .tc main_v0) = _
  after_results
  exact exit0_x m ρ c

set_option maxHeartbeats 2000000 in
/-- and in its second the gate of the pooled means — the host chain between the regions as ONE function of what
    region 0 left, reshaped to (16, 256) on the way in and back to 4096 entries on the way out. -/
theorem entry1_gate (c : Dev nD) :
    V5 m ρ c main_v32 = shapeCast S4096 (Chain.gate (shapeCast S16x256 (W2 m ρ c (Proc.devRef .tc main_v1)) Gen.shapeCasts_S4096_S16x256)
      (W2 m ρ c (Proc.devRef .tc main_arg1)) (W2 m ρ c (Proc.devRef .tc main_arg2)) (W2 m ρ c (Proc.devRef .tc main_arg3))
      (W2 m ρ c (Proc.devRef .tc main_arg4)) (W2 m ρ c (Proc.devRef .tc main_arg5))) Gen.shapeCasts_S16x256_S4096 := by
  show StableHlo.after hostOps1_2 (W4 m ρ c) (Proc.devRef .tc main_v32) = _
  after_results_simp
  rfl

/-- The result buffer is region 1's output array, reshaped to its four axes. -/
theorem exit_result (c : Dev nD) :
    W7 m ρ c (Proc.devRef .tc main_v34)
      = shapeCast S16x256x128x128 ((dat1 (V5 m ρ) c).arrAt 2 cfg1.N) Gen.shapeCasts_S4096x128x128_S16x256x128x128 := by
  show StableHlo.after hostOps2 (W6 m ρ c) (Proc.devRef .tc main_v34) = _
  after_results
  rw [show W6 m ρ c (Proc.devRef .tc main_v33) = (dat1 (V5 m ρ) c).arrAt 2 cfg1.N from W6_arr m ρ c 2]
  rfl

end Cert.KernelIdeal.Named

end
-- ==== Proof.KPay.lean ====
/-
  The two kernel bodies' arithmetic, read at an index (at the ideal instance).
  * The pooling body: entry n of its stored vector is the sum over h of the sum over w of the loaded block's
    entries (n, h, w) — a lane sum, then a sum over the remaining axis — scaled by the float 2⁻¹⁴.
  * The product body: entry (n, h, w) of its stored block is the loaded block's entry times entry n of the loaded
    gate vector (reshaped to a column and broadcast along both trailing axes).
-/
import proofs.«141233_j51135880626495_1_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.KernelIdeal.Pay

open Idealize.ShloMosaic Idealize.ShloMosaic.TcCoe Idealize.SL.Sem Idealize.ShloMosaic.ValueIdx
open Cert.KernelIdeal Cert.KernelIdeal.Gen

/-- A lane sum (over the last of three axes) at (n, h): the sum over w. -/
theorem laneSum (v : FVec Ideal S256x128x128 .f32) (hr : S256x128x128.Reduces [2] S256x128) (hφ : FKind.Formats .f32)
    (hacc : (0x00000000#32 : BitVec 32) = FKind.add.neutral .f32 hφ) (n : Fin 256) (h : Fin 128) :
    multiReduction .add [2] S256x128 v 0x00000000#32 hr hφ hacc (ix2 n h) = ∑ w : Fin 128, v (ix3 n h w) := by
  refine (Ideal.multiReduction_add_single v 0x00000000#32 hr hφ hacc (ix2 n h)).trans ?_
  refine Finset.sum_congr rfl fun w _ => congrArg v ?_
  funext a; apply Fin.ext
  match a with
  | ⟨0, _⟩ => rfl
  | ⟨1, _⟩ => rfl
  | ⟨2, _⟩ => rfl

/-- A sum over the last of two axes at n: the sum over h. -/
theorem rowSum (v : FVec Ideal S256x128 .f32) (hr : S256x128.Reduces [1] S256) (hφ : FKind.Formats .f32)
    (hacc : (0x00000000#32 : BitVec 32) = FKind.add.neutral .f32 hφ) (n : Fin 256) :
    multiReduction .add [1] S256 v 0x00000000#32 hr hφ hacc (ix1 n) = ∑ h : Fin 128, v (ix2 n h) := by
  refine (Ideal.multiReduction_add_single v 0x00000000#32 hr hφ hacc (ix1 n)).trans ?_
  refine Finset.sum_congr rfl fun h _ => congrArg v ?_
  funext a; apply Fin.ext
  match a with
  | ⟨0, _⟩ => rfl
  | ⟨1, _⟩ => rfl

/-- The pooling body's stored vector at n. -/
theorem pool_apply (v : Vec Ideal S256x128x128 .f32) (n : Fin 256) :
    k0_pay1 (F := Ideal) v (ix1 n) = (∑ h : Fin 128, ∑ w : Fin 128, v (ix3 n h w)) * Ideal.ofBits .f32 0x38800000#32 := by
  unfold k0_pay1
  refine congrArg (· * Ideal.ofBits .f32 0x38800000#32) ?_
  refine (rowSum _ _ _ _ n).trans ?_
  refine Finset.sum_congr rfl fun h _ => ?_
  refine (laneSum _ _ _ _ n h).trans ?_
  rw [shapeCast_self]

/-- The product body's stored block at (n, h, w). -/
theorem gate_apply (g : Vec Ideal S128 .f32) (v : Vec Ideal S128x128x128 .f32) (n h w : Fin 128) :
    k1_pay1 (F := Ideal) g v (ix3 n h w) = v (ix3 n h w) * g (ix1 n) := by
  unfold k1_pay1
  show shapeCast S128x128x128 v shapeCasts_S128x128x128_S128x128x128 (ix3 n h w)
      * broadcastTo S128x128x128 (shapeCast S128x1x1 (shapeCast S128x1x1 (shapeCast S128 g shapeCasts_S128_S128) shapeCasts_S128_S128x1x1) shapeCasts_S128x1x1_S128x1x1) broadcasts_S128x1x1_S128x128x128 (ix3 n h w) = _
  rw [shapeCast_self, shapeCast_self, shapeCast_self]
  refine congrArg (v (ix3 n h w) * ·) ?_
  refine (broadcastTo_apply _ broadcasts_S128x1x1_S128x128x128 (ix3 n h w) (ix3 n (0 : Fin 1) (0 : Fin 1)) fun a => ?_).trans ?_
  · match a with
    | ⟨0, _⟩ => rfl
    | ⟨1, _⟩ => rfl
    | ⟨2, _⟩ => rfl
  · refine shapeCast_apply g shapeCasts_S128_S128x1x1 (ix3 n (0 : Fin 1) (0 : Fin 1)) (ix1 n) ?_
    rw [Shape.rowMajor_val_one, Shape.rowMajor_val_three]
    show n.val = (n.val * 1 + 0) * 1 + 0
    omega

end Cert.KernelIdeal.Pay

end
-- ==== Proof.KRegions.lean ====
/-
  What each region leaves in its output array (at the ideal instance), as ONE function of the arrays the region finds.

  Region 0 (pooling): grid point t holds rows 256·t … 256·t+255 of the (4096, 128, 128) array and writes entries
  256·t … 256·t+255 of the output vector; entry n is the sum over (h, w) of row n, scaled by 2⁻¹⁴. The 16 blocks
  tile the 4096 entries, so the output vector ends as that function everywhere.

  Region 1 (product): grid point t holds rows 128·t … 128·t+127 of the array and the same 128 entries of the gate
  vector, and writes rows 128·t … of the output; entry (n, h, w) is the array's entry times the gate's entry n. The
  32 blocks tile the 4096 rows.
-/
import proofs.«141233_j51135880626495_1_alg».proof.Proof.Gen.KernelIdeal.Frame
import proofs.«141233_j51135880626495_1_alg».proof.Proof.KPay
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## Region 0: the pooled means -/

/-- Entry n of the pooled vector: the sum over (h, w) of row n of the array, scaled by the float 2⁻¹⁴. -/
def pooled (a : S4096x128x128.Idx → EReal) : S4096.Idx → EReal :=
  fun i => (∑ h : Fin 128, ∑ w : Fin 128, a (ix3 (i 0) h w)) * Ideal.ofBits .f32 0x38800000#32

theorem hz1 : (![0] : Fin 1 → Nat) = fun _ => 0 := funext fun a => by fin_cases a; rfl
theorem hz3 : (![0, 0, 0] : Fin 3 → Nat) = fun _ => 0 := funext fun a => by fin_cases a <;> rfl

/-- The printed index maps over region 0's grid: point t is block t of both windows along the leading axis, and
    the input's blocks span the two trailing axes whole. -/
theorem idx0 : ∀ t : Fin cfg0.N, win0_0.index t (0 : Fin 3) = t.val ∧ win0_0.index t (1 : Fin 3) = 0
    ∧ win0_0.index t (2 : Fin 3) = 0 ∧ win0_1.index t (0 : Fin 1) = t.val :=
  (by decide +kernel : ∀ t : Fin grid0.N, _)

/-- What point t writes back is block t of the pooled vector of the array the region finds. -/
theorem flushed_pool (c : Dev nD) (t : Fin cfg0.N) :
    (dat0 V c).flushed 1 t = ((cfg0.win 1).blk t).view.read (Elt Ideal) (pooled (V c main_v0)) := by
  show (cfg0.win 1).cut (grid0.coords t) ((dat0 V c).after 1 t) = _
  rw [after0_1]
  unfold out0_1
  rw [View.canon_unit_zero hz1]
  simp only [View.ld_unit_zero (S := S256x128x128) hz3]
  obtain ⟨e0, e1, e2, e3⟩ := idx0 t
  funext j
  obtain ⟨n, rfl⟩ : ∃ n : Fin 256, j = ix1 n := ⟨j 0, eq_ix1 j⟩
  show k0_pay1 (iblk0 V c 0 t) (ix1 n) = pooled (V c main_v0) (((cfg0.win 1).blk t).view.emb (ix1 n))
  rw [Pay.pool_apply]
  unfold pooled
  refine congrArg (· * Ideal.ofBits .f32 0x38800000#32) ?_
  refine Finset.sum_congr rfl fun h _ => Finset.sum_congr rfl fun w _ => ?_
  show V c main_v0 (((cfg0.win 0).blk t).view.emb (ix3 n h w)) = V c main_v0 (ix3 ((((cfg0.win 1).blk t).view.emb (ix1 n)) 0) h w)
  refine congrArg (V c main_v0) ?_
  funext a; apply Fin.ext
  match a with
  | ⟨0, _⟩ => show win0_0.index t (0 : Fin 3) * 256 + 1 * n.val = win0_1.index t (0 : Fin 1) * 256 + 1 * n.val; omega
  | ⟨1, _⟩ => show win0_0.index t (1 : Fin 3) * 128 + 1 * h.val = h.val; omega
  | ⟨2, _⟩ => show win0_0.index t (2 : Fin 3) * 128 + 1 * w.val = w.val; omega

/-- An entry of the output vector is in point t's block iff it lies in the block's range. -/
theorem mem_blk_pool (t : Fin cfg0.N) (i : S4096.Idx) :
    i ∈ ((cfg0.win 1).blk t).view.set ↔ ∀ a : Fin 1, win0_1.index t a * S256.size a ≤ (i a).val ∧ (i a).val < win0_1.index t a * S256.size a + S256.size a := by
  show i ∈ ((View.whole main_v1).slice (win0_1.rect t)).set ↔ _
  rw [View.set_slice_whole, Rect.mem_set_unit]
  exact Iff.rfl

/-- Every entry is in some point's block: entry n in block n / 256. -/
theorem cover_pool (i : S4096.Idx) : ∃ t : Fin cfg0.N, (cfg0.win 1).flush t = true ∧ i ∈ ((cfg0.win 1).blk t).view.set := by
  have hi : (i 0).val < 4096 := (i 0).isLt
  have hN : grid0.N = 16 := N_0
  refine ⟨⟨(i 0).val / 256, by show (i 0).val / 256 < grid0.N; omega⟩, flush0_1 _, ?_⟩
  rw [mem_blk_pool]
  obtain ⟨-, -, -, e3⟩ := idx0 ⟨(i 0).val / 256, by show (i 0).val / 256 < grid0.N; omega⟩
  intro a
  match a with
  | ⟨0, _⟩ =>
    show win0_1.index _ (0 : Fin 1) * 256 ≤ (i 0).val ∧ (i 0).val < win0_1.index _ (0 : Fin 1) * 256 + 256
    rw [e3]
    show (i 0).val / 256 * 256 ≤ (i 0).val ∧ (i 0).val < (i 0).val / 256 * 256 + 256
    omega

/-- Region 0's output array ends as the pooled vector of its input array. -/
theorem final_pool (c : Dev nD) : (dat0 V c).arrAt 1 cfg0.N = pooled (V c main_v0) :=
  (dat0 V c).arrAt_eq_of_cover 1 (pooled (V c main_v0)) (fun t _ => flushed_pool V c t) cover_pool

/-! ## Region 1: the product with the gate -/

/-- Entry (n, h, w) of the product: the array's entry times the gate's entry n. -/
def gated (a : S4096x128x128.Idx → EReal) (g : S4096.Idx → EReal) : S4096x128x128.Idx → EReal :=
  fun i => a i * g (ix1 (i 0))

/-- The printed index maps over region 1's grid: point t is block t of all three windows along the leading axis, and
    the rank-3 windows' blocks span the two trailing axes whole. -/
theorem idx1 : ∀ t : Fin cfg1.N, win1_0.index t (0 : Fin 3) = t.val ∧ win1_0.index t (1 : Fin 3) = 0
    ∧ win1_0.index t (2 : Fin 3) = 0 ∧ win1_1.index t (0 : Fin 1) = t.val
    ∧ win1_2.index t (0 : Fin 3) = t.val ∧ win1_2.index t (1 : Fin 3) = 0 ∧ win1_2.index t (2 : Fin 3) = 0 :=
  (by decide +kernel : ∀ t : Fin grid1.N, _)

/-- What point t writes back is block t of the product of the two arrays the region finds. -/
theorem flushed_gated (c : Dev nD) (t : Fin cfg1.N) :
    (dat1 V c).flushed 2 t = ((cfg1.win 2).blk t).view.read (Elt Ideal) (gated (V c main_v0) (V c main_v32)) := by
  show (cfg1.win 2).cut (grid1.coords t) ((dat1 V c).after 2 t) = _
  rw [after1_2]
  unfold out1_2
  rw [View.canon_unit_zero hz3]
  simp only [View.ld_unit_zero (S := S128x128x128) hz3, View.ld_unit_zero (S := S128) hz1]
  obtain ⟨e0, e1, e2, e3, e4, e5, e6⟩ := idx1 t
  funext j
  obtain ⟨n, h, w, rfl⟩ : ∃ (n h w : Fin 128), j = ix3 n h w := ⟨j 0, j 1, j 2, eq_ix3 j⟩
  show k1_pay1 (iblk1 V c 1 t) (iblk1 V c 0 t) (ix3 n h w) = gated (V c main_v0) (V c main_v32) (((cfg1.win 2).blk t).view.emb (ix3 n h w))
  rw [Pay.gate_apply]
  unfold gated
  have h0 : iblk1 V c 0 t (ix3 n h w) = V c main_v0 (((cfg1.win 2).blk t).view.emb (ix3 n h w)) := by
    show V c main_v0 (((cfg1.win 0).blk t).view.emb (ix3 n h w)) = _
    refine congrArg (V c main_v0) ?_
    funext a; apply Fin.ext
    match a with
    | ⟨0, _⟩ => show win1_0.index t (0 : Fin 3) * 128 + 1 * n.val = win1_2.index t (0 : Fin 3) * 128 + 1 * n.val; omega
    | ⟨1, _⟩ => show win1_0.index t (1 : Fin 3) * 128 + 1 * h.val = win1_2.index t (1 : Fin 3) * 128 + 1 * h.val; omega
    | ⟨2, _⟩ => show win1_0.index t (2 : Fin 3) * 128 + 1 * w.val = win1_2.index t (2 : Fin 3) * 128 + 1 * w.val; omega
  have h1 : iblk1 V c 1 t (ix1 n) = V c main_v32 (ix1 ((((cfg1.win 2).blk t).view.emb (ix3 n h w)) 0)) := by
    show V c main_v32 (((cfg1.win 1).blk t).view.emb (ix1 n)) = _
    refine congrArg (V c main_v32) ?_
    funext a; apply Fin.ext
    match a with
    | ⟨0, _⟩ => show win1_1.index t (0 : Fin 1) * 128 + 1 * n.val = win1_2.index t (0 : Fin 3) * 128 + 1 * n.val; omega
  rw [h0, h1]

/-- A row index of the output array is in point t's block iff each coordinate lies in the block's range. -/
theorem mem_blk_gated (t : Fin cfg1.N) (i : S4096x128x128.Idx) :
    i ∈ ((cfg1.win 2).blk t).view.set ↔ ∀ a : Fin 3, win1_2.index t a * S128x128x128.size a ≤ (i a).val ∧ (i a).val < win1_2.index t a * S128x128x128.size a + S128x128x128.size a := by
  show i ∈ ((View.whole main_v33).slice (win1_2.rect t)).set ↔ _
  rw [View.set_slice_whole, Rect.mem_set_unit]
  exact Iff.rfl

/-- Every index is in some point's block: row n in block n / 128. -/
theorem cover_gated (i : S4096x128x128.Idx) : ∃ t : Fin cfg1.N, (cfg1.win 2).flush t = true ∧ i ∈ ((cfg1.win 2).blk t).view.set := by
  have hi0 : (i 0).val < 4096 := (i 0).isLt
  have hi1 : (i 1).val < 128 := (i 1).isLt
  have hi2 : (i 2).val < 128 := (i 2).isLt
  have hN : grid1.N = 32 := N_1
  refine ⟨⟨(i 0).val / 128, by show (i 0).val / 128 < grid1.N; omega⟩, flush1_2 _, ?_⟩
  rw [mem_blk_gated]
  obtain ⟨-, -, -, -, e4, e5, e6⟩ := idx1 ⟨(i 0).val / 128, by show (i 0).val / 128 < grid1.N; omega⟩
  intro a
  match a with
  | ⟨0, _⟩ =>
    show win1_2.index _ (0 : Fin 3) * 128 ≤ (i 0).val ∧ (i 0).val < win1_2.index _ (0 : Fin 3) * 128 + 128
    rw [e4]
    show (i 0).val / 128 * 128 ≤ (i 0).val ∧ (i 0).val < (i 0).val / 128 * 128 + 128
    omega
  | ⟨1, _⟩ =>
    show win1_2.index _ (1 : Fin 3) * 128 ≤ (i 1).val ∧ (i 1).val < win1_2.index _ (1 : Fin 3) * 128 + 128
    rw [e5]; omega
  | ⟨2, _⟩ =>
    show win1_2.index _ (2 : Fin 3) * 128 ≤ (i 2).val ∧ (i 2).val < win1_2.index _ (2 : Fin 3) * 128 + 128
    rw [e6]; omega

/-- Region 1's output array ends as the product of its two input arrays. -/
theorem final_gated (c : Dev nD) : (dat1 V c).arrAt 2 cfg1.N = gated (V c main_v0) (V c main_v32) :=
  (dat1 V c).arrAt_eq_of_cover 2 (gated (V c main_v0) (V c main_v32)) (fun t _ => flushed_gated V c t) cover_gated

end Cert.KernelIdeal.Regions

end
-- ==== Proof.KValue.lean ====
/-
  The idealized kernel's result as ONE function of the six argument arrays, and its run re-posted with it.
  With X the argument x reshaped to (4096, 128, 128): the pooled vector of X, reshaped to (16, 256), goes through
  the host chain to the gate; the gate, reshaped to 4096 entries, multiplies X row by row; the product is reshaped
  to (16, 256, 128, 128).
-/
import proofs.«141233_j51135880626495_1_alg».proof.Proof.KRun
import proofs.«141233_j51135880626495_1_alg».proof.Proof.KVals
import proofs.«141233_j51135880626495_1_alg».proof.Proof.KRegions

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The kernel's result from the argument arrays. -/
def result (x0 : (⟨S16x256x128x128, .f32⟩ : BufTy).Contents (Elt Ideal)) (x1 : (⟨S128x256, .f32⟩ : BufTy).Contents (Elt Ideal))
    (x2 x3 : (⟨S_, .f32⟩ : BufTy).Contents (Elt Ideal)) (x4 : (⟨S256x128, .f32⟩ : BufTy).Contents (Elt Ideal))
    (x5 : (⟨S128x128, .f32⟩ : BufTy).Contents (Elt Ideal)) : (⟨S16x256x128x128, .f32⟩ : BufTy).Contents (Elt Ideal) :=
  shapeCast S16x256x128x128
    (Regions.gated (shapeCast S4096x128x128 x0 Gen.shapeCasts_S16x256x128x128_S4096x128x128)
      (shapeCast S4096
        (Chain.gate (F := Ideal)
          (shapeCast S16x256 (Regions.pooled (shapeCast S4096x128x128 x0 Gen.shapeCasts_S16x256x128x128_S4096x128x128)) Gen.shapeCasts_S4096_S16x256)
          x1 x2 x3 x4 x5)
        Gen.shapeCasts_S16x256_S4096))
    Gen.shapeCasts_S4096x128x128_S16x256x128x128

/-- The last boundary's contents of the result buffer are that function of the launch contents of the arguments. -/
theorem result_eq (c : Dev nD) :
    W7 m ρ c (Proc.devRef .tc main_v34)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [exit_result, Regions.final_gated (V5 m ρ) c, entry1_x, entry1_gate, exit0_pool, Regions.final_pool (V1 m ρ) c,
    entry0_x, exit0_arg1, exit0_arg2, exit0_arg3, exit0_arg4, exit0_arg5]
  rfl

/-- Every weakly fair execution of the idealized kernel terminates with the result buffer at `result` of the launch
    contents of the arguments, and the arguments unchanged. -/
theorem run : θ_run defs (onTc (τ := τ) (main (F := Ideal))) ⟨m, fun _ => 0, ρ⟩ (fun r => ∀ c : Dev nD,
      r.2.mem ((c.tc : Thread nD τ).loc main_v34)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.Named

end
-- ==== Proof.PoolLaw.lean ====
/-
  The arithmetic that joins the two programs, on the extended reals.

  * The kernel scales a block's sum by the float `0x38800000`, which is exactly 2⁻¹⁴ = 1/16384; the reference divides the
    sum by the float `0x46800000`, exactly 16384. Division by a nonzero real is the product with its reciprocal at
    every extended real, the infinities included, so the two agree on every sum.
  * The reference sums a rank-4 array over its last two axes in one reduction; read at (b, c) that is the initial value
    plus the double sum over (h, w) of the entries (b, c, h, w): the indices that reduce to (b, c) are exactly those
    with first coordinates b and c, in bijection with the pairs (h, w). Addition of extended reals is commutative and
    associative, so no finiteness is needed.
-/
import Idealize.ShloMosaic.PureOps.Ideal
import Idealize.ShloMosaic.PureOps.Ideal.Laws
import Idealize.ShloMosaic.Lib.ValueIdx

noncomputable section

namespace Cert.PoolLaw

open Idealize.ShloMosaic Idealize.ShloMosaic.ValueIdx

/-- The kernel's scale: the float pattern `0x38800000` denotes 1/16384. -/
theorem ofBits_inv16384 : Ideal.ofBits .f32 0x38800000#32 = ((1 / 16384 : ℝ) : EReal) := by
  simp [Ideal.ofBits, Ideal.ieee, -EReal.coe_mul]; norm_num

/-- The reference's divisor: the float pattern `0x46800000` denotes 16384. -/
theorem ofBits_16384 : Ideal.ofBits .f32 0x46800000#32 = ((16384 : ℝ) : EReal) := by
  simp [Ideal.ofBits, Ideal.ieee, -EReal.coe_mul]; norm_num

/-- Dividing by 16384 is scaling by 1/16384, at every extended real. -/
theorem div_eq_scale (s : EReal) :
    Ideal.div s (Ideal.ofBits .f32 0x46800000#32) = s * Ideal.ofBits .f32 0x38800000#32 := by
  rw [ofBits_16384, ofBits_inv16384]
  exact Ideal.div_coe (by norm_num) s

abbrev T4 : Shape := ⟨4, ![16, 256, 128, 128]⟩
abbrev T2 : Shape := ⟨2, ![16, 256]⟩

/-- An index of the rank-4 array reduces (over its last two axes) to (b, c) exactly when its first two coordinates
    are b and c. -/
theorem drop_eq_iff (h' : T4.ReducesTo [2, 3] T2) (i : T4.Idx) (b : Fin 16) (c : Fin 256) :
    h'.drop i = ix2 b c ↔ (i 0).val = b.val ∧ (i 1).val = c.val := by
  have e0 : (h'.drop i 0).val = (i 0).val := Shape.ReducesTo.drop_apply_val_of_eq h' i 0 0
  have e1 : (h'.drop i 1).val = (i 1).val := Shape.ReducesTo.drop_apply_val_of_eq h' i 1 1
  constructor
  · intro h
    have h0 : (h'.drop i 0).val = b.val := by rw [h]
    have h1 : (h'.drop i 1).val = c.val := by rw [h]
    exact ⟨e0 ▸ h0, e1 ▸ h1⟩
  · rintro ⟨h0, h1⟩
    funext a
    apply Fin.ext
    match a with
    | ⟨0, _⟩ => exact e0.trans h0
    | ⟨1, _⟩ => exact e1.trans h1

/-- The host's sum over the last two axes, read at (b, c): the initial value plus the double sum over (h, w). -/
theorem hostReduceAdd_last_two (h' : T4.ReducesTo [2, 3] T2) (x : T4.Idx → EReal) (init : EReal) (b : Fin 16) (c : Fin 256) :
    Ideal.hostReduceAdd h' x init (ix2 b c) = init + ∑ h : Fin 128, ∑ w : Fin 128, x (ix4 b c h w) := by
  unfold Ideal.hostReduceAdd
  refine congrArg (init + ·) ?_
  rw [← Fintype.sum_prod_type' (fun (h : Fin 128) (w : Fin 128) => x (ix4 b c h w))]
  refine Finset.sum_nbij' (fun i => ((i 2 : Fin 128), (i 3 : Fin 128))) (fun p => ix4 b c p.1 p.2) ?_ ?_ ?_ ?_ ?_
  · intro i _; exact Finset.mem_univ _
  · intro p _
    exact Finset.mem_filter.2 ⟨Finset.mem_univ _, (drop_eq_iff h' _ b c).2 ⟨rfl, rfl⟩⟩
  · intro i hi
    obtain ⟨h0, h1⟩ := (drop_eq_iff h' i b c).1 (Finset.mem_filter.1 hi).2
    funext a
    apply Fin.ext
    match a with
    | ⟨0, _⟩ => exact h0.symm
    | ⟨1, _⟩ => exact h1.symm
    | ⟨2, _⟩ => rfl
    | ⟨3, _⟩ => rfl
  · intro p _; rfl
  · intro i hi
    obtain ⟨h0, h1⟩ := (drop_eq_iff h' i b c).1 (Finset.mem_filter.1 hi).2
    refine congrArg x ?_
    funext a
    apply Fin.ext
    match a with
    | ⟨0, _⟩ => exact h0
    | ⟨1, _⟩ => exact h1
    | ⟨2, _⟩ => rfl
    | ⟨3, _⟩ => rfl

end Cert.PoolLaw

end
-- ==== Proof.RefValue.lean ====
/-
  The reference, read through the same vocabulary as the kernel (at the ideal instance).
  * Its pooled means: entry (b, c) is the sum over (h, w) of x (b, c, h, w) divided by 16384 — the same extended real
    as that sum scaled by 2⁻¹⁴.
  * Its gate is the shared host chain applied to those means.
  * Its result at (b, c, h, w) is x (b, c, h, w) times the gate's entry (b, c) (the gate broadcast along both
    spatial axes).
-/
import proofs.«141233_j51135880626495_1_alg».proof.Proof.Gen.ReferenceIdeal.Read
import proofs.«141233_j51135880626495_1_alg».proof.Proof.Gen.KernelIdeal
import proofs.«141233_j51135880626495_1_alg».proof.Proof.Chain
import proofs.«141233_j51135880626495_1_alg».proof.Proof.PoolLaw
import Idealize.ShloMosaic.Lib.ValueIdx

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The reference's gate is the shared host chain of its pooled means. -/
theorem gate_eq (x0 : (⟨S16x256x128x128, .f32⟩ : BufTy).Contents (Elt Ideal)) (x1 : (⟨S128x256, .f32⟩ : BufTy).Contents (Elt Ideal))
    (x2 x3 : (⟨S_, .f32⟩ : BufTy).Contents (Elt Ideal)) (x4 : (⟨S256x128, .f32⟩ : BufTy).Contents (Elt Ideal))
    (x5 : (⟨S128x128, .f32⟩ : BufTy).Contents (Elt Ideal)) :
    val_main_v31 (F := Ideal) x0 x1 x2 x3 x4 x5 = Cert.KernelIdeal.Chain.gate (F := Ideal) (val_main_v2 (F := Ideal) x0) x1 x2 x3 x4 x5 := rfl

/-- The reference's pooled mean at (b, c): the sum over (h, w), scaled by the float 2⁻¹⁴. -/
theorem mean_apply (x0 : (⟨S16x256x128x128, .f32⟩ : BufTy).Contents (Elt Ideal)) (b : Fin 16) (c : Fin 256) :
    val_main_v2 (F := Ideal) x0 (ix2 b c) = (∑ h : Fin 128, ∑ w : Fin 128, x0 (ix4 b c h w)) * Ideal.ofBits .f32 0x38800000#32 := by
  rw [val_main_v2_apply, val_main_v1_apply, val_main_cst_0_apply]
  unfold val_main_v0
  simp only [Host.reduceAdd, Ideal.hostReduceAdd_def, Ideal.hostDivf_def, Ideal.ofBits_def]
  rw [Cert.PoolLaw.hostReduceAdd_last_two, Cert.PoolLaw.div_eq_scale, val_main_cst_apply, Ideal.ofBits_def, Ideal.ofBits_zero_f32, zero_add]

/-- The reference's result at (b, c, h, w). -/
theorem result_apply (x0 : (⟨S16x256x128x128, .f32⟩ : BufTy).Contents (Elt Ideal)) (x1 : (⟨S128x256, .f32⟩ : BufTy).Contents (Elt Ideal))
    (x2 x3 : (⟨S_, .f32⟩ : BufTy).Contents (Elt Ideal)) (x4 : (⟨S256x128, .f32⟩ : BufTy).Contents (Elt Ideal))
    (x5 : (⟨S128x128, .f32⟩ : BufTy).Contents (Elt Ideal)) (b : Fin 16) (c : Fin 256) (h w : Fin 128) :
    val_main_v34 (F := Ideal) x0 x1 x2 x3 x4 x5 (ix4 b c h w)
      = x0 (ix4 b c h w) * Cert.KernelIdeal.Chain.gate (F := Ideal) (val_main_v2 (F := Ideal) x0) x1 x2 x3 x4 x5 (ix2 b c) := by
  have e : idx_main_v32 (idx_main_v33 (ix4 b c h w)) = ix2 b c :=
    funext fun a => Fin.ext (by match a with | ⟨0, _⟩ => rfl | ⟨1, _⟩ => rfl)
  rw [val_main_v34_apply, val_main_v33_apply, val_main_v32_apply, gate_eq, e]
  rfl

end Cert.ReferenceIdeal.RefValue

end
-- ==== Proof.Bridge.lean ====
/-
  The two results are one function of the argument arrays (at the ideal instance).
  At (b, c, h, w), with n = 256·b + c the row of the flattened array: the kernel's result is the flattened array's entry
  (n, h, w) — which is x (b, c, h, w) — times entry n of the flattened gate — which is the gate's entry (b, c). The
  reference's is x (b, c, h, w) times the gate's entry (b, c). Both gates are the shared host chain of the pooled means,
  and the pooled means agree: the kernel's entry (b, c) is the sum over (h, w) of row n of the flattened array, scaled by
  2⁻¹⁴, the reference's the same sum divided by 16384.
-/
import proofs.«141233_j51135880626495_1_alg».proof.Proof.KValue
import proofs.«141233_j51135880626495_1_alg».proof.Proof.RefValue

set_option maxRecDepth 16384

noncomputable section

namespace Cert.Bridge

open Idealize.ShloMosaic Idealize.ShloMosaic.TcCoe Idealize.SL.Sem Idealize.ShloMosaic.ValueIdx
open Cert.KernelIdeal Cert.KernelIdeal.Named

/-- Row n = 256·b + c of the flattened array. -/
def row (b : Fin 16) (c : Fin 256) : Fin 4096 := ⟨b.val * 256 + c.val, by have := b.isLt; have := c.isLt; omega⟩

/-- The flattened array's entry (n, h, w) is x (b, c, h, w). -/
theorem flat_apply (x0 : (⟨S16x256x128x128, .f32⟩ : BufTy).Contents (Elt Ideal)) (b : Fin 16) (c : Fin 256) (h w : Fin 128) :
    shapeCast S4096x128x128 x0 Gen.shapeCasts_S16x256x128x128_S4096x128x128 (ix3 (row b c) h w) = x0 (ix4 b c h w) := by
  refine shapeCast_apply x0 Gen.shapeCasts_S16x256x128x128_S4096x128x128 (ix3 (row b c) h w) (ix4 b c h w) ?_
  rw [Shape.rowMajor_val_four, Shape.rowMajor_val_three]
  show ((b.val * 256 + c.val) * 128 + h.val) * 128 + w.val = ((b.val * 256 + c.val) * 128 + h.val) * 128 + w.val
  rfl

/-- The kernel's pooled means, reshaped to (16, 256), are the reference's. -/
theorem means_eq (x0 : (⟨S16x256x128x128, .f32⟩ : BufTy).Contents (Elt Ideal)) :
    shapeCast S16x256 (Regions.pooled (shapeCast S4096x128x128 x0 Gen.shapeCasts_S16x256x128x128_S4096x128x128)) Gen.shapeCasts_S4096_S16x256
      = Cert.ReferenceIdeal.Read.val_main_v2 (F := Ideal) x0 := by
  funext i
  obtain ⟨b, c, rfl⟩ : ∃ (b : Fin 16) (c : Fin 256), i = ix2 b c := ⟨i 0, i 1, eq_ix2 i⟩
  refine (shapeCast_apply _ Gen.shapeCasts_S4096_S16x256 (ix2 b c) (ix1 (row b c)) ?_).trans ?_
  · rw [Shape.rowMajor_val_one, Shape.rowMajor_val_two]
    show b.val * 256 + c.val = b.val * 256 + c.val
    rfl
  · refine Eq.trans ?_ (Cert.ReferenceIdeal.RefValue.mean_apply x0 b c).symm
    unfold Regions.pooled
    refine congrArg (· * Ideal.ofBits .f32 0x38800000#32) ?_
    exact Finset.sum_congr rfl fun h _ => Finset.sum_congr rfl fun w _ => flat_apply x0 b c h w

/-- The kernel's result is the reference's, as functions of the six arrays. -/
theorem result_eq (x0 : (⟨S16x256x128x128, .f32⟩ : BufTy).Contents (Elt Ideal)) (x1 : (⟨S128x256, .f32⟩ : BufTy).Contents (Elt Ideal))
    (x2 x3 : (⟨S_, .f32⟩ : BufTy).Contents (Elt Ideal)) (x4 : (⟨S256x128, .f32⟩ : BufTy).Contents (Elt Ideal))
    (x5 : (⟨S128x128, .f32⟩ : BufTy).Contents (Elt Ideal)) :
    Named.result x0 x1 x2 x3 x4 x5 = Cert.ReferenceIdeal.Read.val_main_v34 (F := Ideal) x0 x1 x2 x3 x4 x5 := by
  funext i
  obtain ⟨b, c, h, w, rfl⟩ : ∃ (b : Fin 16) (c : Fin 256) (h w : Fin 128), i = ix4 b c h w := ⟨i 0, i 1, i 2, i 3, eq_ix4 i⟩
  rw [Cert.ReferenceIdeal.RefValue.result_apply, ← means_eq]
  unfold Named.result
  refine (shapeCast_apply _ Gen.shapeCasts_S4096x128x128_S16x256x128x128 (ix4 b c h w) (ix3 (row b c) h w) ?_).trans ?_
  · rw [Shape.rowMajor_val_four, Shape.rowMajor_val_three]
    show ((b.val * 256 + c.val) * 128 + h.val) * 128 + w.val = ((b.val * 256 + c.val) * 128 + h.val) * 128 + w.val
    rfl
  · unfold Regions.gated
    rw [flat_apply]
    refine congrArg (x0 (ix4 b c h w) * ·) ?_
    refine shapeCast_apply _ Gen.shapeCasts_S16x256_S4096 (ix1 (row b c)) (ix2 b c) ?_
    rw [Shape.rowMajor_val_one, Shape.rowMajor_val_two]
    show b.val * 256 + c.val = b.val * 256 + c.val
    rfl

end Cert.Bridge

end
-- ==== Proof.lean ====
/-
  The certificate of a channel-gating kernel against its jnp reference, over the extended reals.

  The computation: x is (16, 256, 128, 128). Each (batch, channel) plane of x is averaged over its 128 × 128 entries;
  the (16, 256) matrix of means goes through a small chain — a 1×1 convolution, a softmax over the hidden channels, an
  adjacency product, a scalar scale and relu, a second 1×1 convolution, a sigmoid — to a (16, 256) gate; the result is x
  with every plane scaled by its gate entry.

  The kernel does the averaging and the final scaling in two pipelined regions over x flattened to (4096, 128, 128) —
  the first sums each row's plane (a lane sum, then a sum over the remaining axis) and multiplies by the float 2⁻¹⁴, the
  second multiplies each row by its entry of the flattened gate — and the chain between them on the host. The reference
  sums over the two spatial axes in one reduction, divides by 16384, applies the same chain, and multiplies x by the gate
  broadcast along the spatial axes.

  Why they agree at every extended real, with no finiteness used: the double sum and the one reduction over two axes are
  the same sum of extended reals (addition is commutative and associative); the float 2⁻¹⁴ is exactly 1/16384, and
  dividing by a nonzero real is multiplying by its reciprocal, at the infinities too; the chain is literally the same
  function on both sides, so it is never opened; and the reshapes only rename indices (row 256·b + c of the flattened
  array is plane (b, c)).

  The modules: PoolLaw (the arithmetic), Chain (the shared host chain as one function), KPay (the two bodies' arithmetic
  at an index), KRegions (what each region leaves in its output array), KRun (the kernel's run with its result kept),
  KVals (the host stretches read), KValue (the kernel's result as one function, and its run), RefValue (the reference read),
  Bridge (the two functions are one). The three frames are the generated ones; no rewrite was made by the ideal pass, so
  the preservation claim is trivial.
-/
import proofs.«141233_j51135880626495_1_alg».proof.Defs
import proofs.«141233_j51135880626495_1_alg».proof.Proof.Gen.Kernel
import proofs.«141233_j51135880626495_1_alg».proof.Proof.Gen.Kernel.Frame
import proofs.«141233_j51135880626495_1_alg».proof.Proof.Gen.KernelIdeal
import proofs.«141233_j51135880626495_1_alg».proof.Proof.Gen.KernelIdeal.Frame
import proofs.«141233_j51135880626495_1_alg».proof.Proof.Gen.ReferenceIdeal
import proofs.«141233_j51135880626495_1_alg».proof.Proof.Gen.ReferenceIdeal.Run
import proofs.«141233_j51135880626495_1_alg».proof.Proof.Gen.ReferenceIdeal.Read
import proofs.«141233_j51135880626495_1_alg».proof.Proof.Gen.Pre_finite_inputs
import proofs.«141233_j51135880626495_1_alg».proof.Proof.Bridge

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the six arguments both idealized programs end with the same result: the kernel's is
    `Named.result` of its arguments, the reference's its composed term, which is the stage `val_main_v34`, and the two
    are one function. -/
theorem algebraic : Cert.algebraic_KernelIdeal_ReferenceIdeal := by
  intro m ρ m' ρ' _ hagree
  refine ⟨_, Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2.1, (hagree c).2.2.2.2.2]
  exact (Cert.Bridge.result_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
